-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x128 : Shape := ⟨3, ![32, 1, 128]⟩
abbrev S32x8192x128 : Shape := ⟨3, ![32, 8192, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S32x1x128 : S_.BroadcastsInDim S32x1x128 (![] : Fin 0 → Fin S32x1x128.rank)
  reducesTo_S32x1x128_S_d0_1_2 : S32x1x128.ReducesTo [0, 1, 2] S_
  h_S_ : 0 < S_.numel
  bcast_S_S32x8192x128 : S_.BroadcastsInDim S32x8192x128 (![] : Fin 0 → Fin S32x8192x128.rank)
  reducesTo_S32x8192x128_S_d0_1_2 : S32x8192x128.ReducesTo [0, 1, 2] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x128 .f32) (main_arg5 : FVec F S128x1 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32x1x128 .f32) (main_arg1 : FVec F S32x8192x128 .f32) (main_arg2 : FVec F S32x8192x128 .f32) (main_arg3 : FVec F S128x128 .f32) (main_arg4 : FVec F S128x128 .f32) (main_arg5 : FVec F S128x1 .f32) (main_arg6 : FVec F S1 .f32) : IVec S_ 1 :=
  let main_v0 : FVec F S32x1x128 .f32 := Host.absf main_arg0
  let main_cst : FVec F S_ .f32 := constant S_ .f32 0x7F800000#32
  let main_v1 : FVec F S32x1x128 .f32 := broadcastInDim S32x1x128 ![] bcast_S_S32x1x128 main_cst
  let main_v2 : IVec S32x1x128 1 := cmpf .olt main_v0 main_v1
  let main_c : IVec S_ 1 := constantI S_ 1 1#1
  let main_v3 : IVec S_ 1 := (fun x v => Host.reduce IntOp.andi x v reducesTo_S32x1x128_S_d0_1_2 h_S_) main_v2 main_c
  let main_v4 : FVec F S32x8192x128 .f32 := Host.absf main_arg1
  let main_cst_0 : FVec F S_ .f32 := constant S_ .f32 0x7F800000#32
  let main_v5 : FVec F S32x8192x128 .f32 := broadcastInDim S32x8192x128 ![] bcast_S_S32x8192x128 main_cst_0
  let main_v6 : IVec S32x8192x128 1 := cmpf .olt main_v4 main_v5
  let main_c_1 : IVec S_ 1 := constantI S_ 1 1#1
  let main_v7 : IVec S_ 1 := (fun x v => Host.reduce IntOp.andi x v reducesTo_S32x8192x128_S_d0_1_2 h_S_) main_v6 main_c_1
  let main_v8 : IVec S_ 1 := andi main_v3 main_v7
  let main_v9 : FVec F S32x8192x128 .f32 := Host.absf main_arg2
  let main_cst_2 : FVec F S_ .f32 := constant S_ .f32 0x7F800000#32
  let main_v10 : FVec F S32x8192x128 .f32 := broadcastInDim S32x8192x128 ![] bcast_S_S32x8192x128 main_cst_2
  let main_v11 : IVec S32x8192x128 1 := cmpf .olt main_v9 main_v10
  let main_c_3 : IVec S_ 1 := constantI S_ 1 1#1
  let main_v12 : IVec S_ 1 := (fun x v => Host.reduce IntOp.andi x v reducesTo_S32x8192x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S32x1x128 : Shape := ⟨3, ![32, 1, 128]⟩
abbrev S32x8192x128 : Shape := ⟨3, ![32, 8192, 128]⟩
abbrev S128x128 : Shape := ⟨2, ![128, 128]⟩
abbrev S128x1 : Shape := ⟨2, ![128, 1]⟩
abbrev S1 : Shape := ⟨1, ![1]⟩
abbrev S32x1x8192 : Shape := ⟨3, ![32, 1, 8192]⟩
abbrev S1x1x128 : Shape := ⟨3, ![1, 1, 128]⟩
abbrev S1x8192x128 : Shape := ⟨3, ![1, 8192, 128]⟩
abbrev S1x1x8192 : Shape := ⟨3, ![1, 1, 8192]⟩
abbrev S8192x128 : Shape := ⟨2, ![8192, 128]⟩
abbrev S1x128 : Shape := ⟨2, ![1, 128]⟩
abbrev S8192x1 : Shape := ⟨2, ![8192, 1]⟩
abbrev S1x1 : Shape := ⟨2, ![1, 1]⟩
abbrev S1x8192 : Shape := ⟨2, ![1, 8192]⟩
abbrev S32x128 : Shape := ⟨2, ![32, 128]⟩
abbrev S32x8192x1 : Shape := ⟨3, ![32, 8192, 1]⟩

abbrev nBuf : Space → Nat
  | .hbm => 11
  | .vmem => 14
  | .smem => 0
  | _ => 0

abbrev bufTy : (tb : Table) → Fin (tcTables nBuf tb) → BufTy
  | .hbm, ⟨0, _⟩ => ⟨S32x1x128, .f32⟩
  | .hbm, ⟨1, _⟩ => ⟨S32x8192x128, .f32⟩
  | .hbm, ⟨2, _⟩ => ⟨S32x8192x128, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S32x1x128, .f32⟩
  | .hbm, ⟨8, _⟩ => ⟨S32x1x8192, .f32⟩
  | .hbm, ⟨9, _⟩ => ⟨S32x128, .f32⟩
  | .hbm, ⟨10, _⟩ => ⟨S32x8192x1, .f32⟩
  | .local _ .vmem, ⟨0, _⟩ => ⟨S1x1x128, .f32⟩
  | .local _ .vmem, ⟨1, _⟩ => ⟨S1x1x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S128x128, .f32⟩
  | .local _ .vmem, ⟨7, _⟩ => ⟨S128x128, .f32⟩
  | .local _ .vmem, ⟨8, _⟩ => ⟨S128x1, .f32⟩
  | .local _ .vmem, ⟨9, _⟩ => ⟨S1, .f32⟩
  | .local _ .vmem, ⟨10, _⟩ => ⟨S1x1x128, .f32⟩
  | .local _ .vmem, ⟨11, _⟩ => ⟨S1x1x128, .f32⟩
  | .local _ .vmem, ⟨12, _⟩ => ⟨S1x1x8192, .f32⟩
  | .local _ .vmem, ⟨13, _⟩ => ⟨S1x1x8192, .f32⟩
  | _, _ => ⟨S32x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S8192x128 : S1x128.Broadcasts S8192x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  transposes_S8192x1_p1_0_S1x8192 : S8192x1.Transposes [1, 0] S1x8192
  reduces_S1x8192_S1 : S1x8192.Reduces [1] S1
  broadcasts_S1x1_S1x8192 : S1x1.Broadcasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S1x128_S1x1x128 : S1x128.ShapeCasts S1x1x128
  shapeCasts_S32x1x128_S32x128 : S32x1x128.ShapeCasts S32x128
  transposes_S32x1x8192_S32x8192x1_0_2_1 : S32x1x8192.Transposes [0, 2, 1] S32x8192x1
  dot_S8192x128_S128x128_S8192x128_1_0_0_1_n_n_wf : DotDims.WF S8192x128 S128x128 S8192x128 [1] [0] [0] [1] [] []
  dot_S1x128_S128x128_S1x128_1_0_0_1_n_n_wf : DotDims.WF S1x128 S128x128 S1x128 [1] [0] [0] [1] [] []
  dot_S8192x128_S128x1_S8192x1_1_0_0_1_n_n_wf : DotDims.WF S8192x128 S128x1 S8192x1 [1] [0] [0] [1] [] []
  dot_S1x8192_S8192x128_S1x128_1_0_0_1_n_n_wf : DotDims.WF S1x8192 S8192x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S32x1x128.size a
  hwx0_0 : ∀ i : grid0.Coords, EltTy.bits .f32 = 32 ∨ (Rect.block (s := S32x1x128) S1x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S32x8192x128.size a
  hwx0_1 : ∀ i : grid0.Coords, EltTy.bits .f32 = 32 ∨ (Rect.block (s := S32x8192x128) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S32x8192x128.size a
  hwx0_2 : ∀ i : grid0.Coords, EltTy.bits .f32 = 32 ∨ (Rect.block (s := S32x8192x128) S1x8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S32x1x128.size a
  hwx0_7 : ∀ i : grid0.Coords, EltTy.bits .f32 = 32 ∨ (Rect.block (s := S32x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x8192.size a ≤ S32x1x8192.size a
  hwx0_8 : ∀ i : grid0.Coords, EltTy.bits .f32 = 32 ∨ (Rect.block (s := S32x1x8192) S1x1x8192.size (cc0_transform_8 i) (hinb0_8 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1x8192_S8192x128_S1x128_1_0_0_1_n_n : DotDims S1x8192 S8192x128 S1x128 where
  lhsContracting := [1]
  rhsContracting := [0]
  lhsNonContracting := [0]
  rhsNonContracting := [1]
  lhsBatch := []
  rhsBatch := []
  wf := dot_S1x8192_S8192x128_S1x128_1_0_0_1_n_n_wf

abbrev win0_0 : Pipeline.Window sig grid0 :=
  Pipeline.Window.ofSpec (Memref.whole main_arg0) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1x8192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1x128 : Shape := ⟨3, ![32, 1, 128]⟩
abbrev S32x8192x128 : Shape := ⟨3, ![32, 8192, 128]⟩
abbrev S128x128 : Shape := ⟨2, ![128, 128]⟩
abbrev S128x1 : Shape := ⟨2, ![128, 1]⟩
abbrev S1 : Shape := ⟨1, ![1]⟩
abbrev S32x8192x1 : Shape := ⟨3, ![32, 8192, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x128 : Shape := ⟨2, ![32, 128]⟩

abbrev nBuf : Space → Nat
  | .hbm => 34
  | .vmem => 0
  | .smem => 0
  | _ => 0

abbrev bufTy : (tb : Table) → Fin (tcTables nBuf tb) → BufTy
  | .hbm, ⟨0, _⟩ => ⟨S32x1x128, .f32⟩
  | .hbm, ⟨1, _⟩ => ⟨S32x8192x128, .f32⟩
  | .hbm, ⟨2, _⟩ => ⟨S32x8192x128, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S32x8192x128, .f32⟩
  | .hbm, ⟨8, _⟩ => ⟨S32x1x128, .f32⟩
  | .hbm, ⟨9, _⟩ => ⟨S32x8192x128, .f32⟩
  | .hbm, ⟨10, _⟩ => ⟨S32x8192x128, .f32⟩
  | .hbm, ⟨11, _⟩ => ⟨S32x8192x128, .f32⟩
  | .hbm, ⟨12, _⟩ => ⟨S32x8192x1, .f32⟩
  | .hbm, ⟨13, _⟩ => ⟨S1x1x1, .f32⟩
  | .hbm, ⟨14, _⟩ => ⟨S32x8192x1, .f32⟩
  | .hbm, ⟨15, _⟩ => ⟨S32x8192x1, .f32⟩
  | .hbm, ⟨16, _⟩ => ⟨S_, .f32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1x1, .f32⟩
  | .hbm, ⟨22, _⟩ => ⟨S32x8192x1, .f32⟩
  | .hbm, ⟨23, _⟩ => ⟨S32x8192x1, .f32⟩
  | .hbm, ⟨24, _⟩ => ⟨S32x8192x1, .f32⟩
  | .hbm, ⟨25, _⟩ => ⟨S_, .f32⟩
  | .hbm, ⟨26, _⟩ => ⟨S32x1, .f32⟩
  | .hbm, ⟨27, _⟩ => ⟨S32x1x1, .f32⟩
  | .hbm, ⟨28, _⟩ => ⟨S32x8192x1, .f32⟩
  | .hbm, ⟨29, _⟩ => ⟨S32x8192x1, .f32⟩
  | .hbm, ⟨30, _⟩ => ⟨S32x8192x128, .f32⟩
  | .hbm, ⟨31, _⟩ => ⟨S32x8192x128, .f32⟩
  | .hbm, ⟨32, _⟩ => ⟨S_, .f32⟩
  | .hbm, ⟨33, _⟩ => ⟨S32x128, .f32⟩
  | _, _ => ⟨S32x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S32x1x128_S32x8192x128_0_1_2 : S32x1x128.BroadcastsInDim S32x8192x128 (![0, 1, 2] : Fin 3 → Fin S32x8192x128.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x1_d1 : S32x8192x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x8192x1_0_1_2 : S32x1x1.BroadcastsInDim S32x8192x1 (![0, 1, 2] : Fin 3 → Fin S32x8192x1.rank)
  bcast_S32x8192x1_S32x8192x128_0_1_2 : S32x8192x1.BroadcastsInDim S32x8192x128 (![0, 1, 2] : Fin 3 → Fin S32x8192x128.rank)
  reducesTo_S32x8192x128_S32x128_d1 : S32x8192x128.ReducesTo [1] S32x128
  dot_S32x8192x128_S128x128_S32x8192x128_2_0_01_1_n_n_wf : DotDims.WF S32x8192x128 S128x128 S32x8192x128 [2] [0] [0, 1] [1] [] []
  dot_S32x1x128_S128x128_S32x1x128_2_0_01_1_n_n_wf : DotDims.WF S32x1x128 S128x128 S32x1x128 [2] [0] [0, 1] [1] [] []
  dot_S32x8192x128_S128x1_S32x8192x1_2_0_01_1_n_n_wf : DotDims.WF S32x8192x128 S128x1 S32x8192x1 [2] [0] [0, 1] [1] [] []

variable [Facts₀]

def dot_S32x8192x128_S128x128_S32x8192x128_2_0_01_1_n_n : DotDims S32x8192x128 S128x128 S32x8192x128 where
  lhsContracting := [2]
  rhsContracting := [0]
  lhsNonContracting := [0, 1]
  rhsNonContracting := [1]
  lhsBatch := []
  rhsBatch := []
  wf := dot_S32x8192x128_S128x128_S32x8192x128_2_0_01_1_n_n_wf
def dot_S32x1x128_S128x128_S32x1x128_2_0_01_1_n_n : DotDims S32x1x128 S128x128 S32x1x128 where
  lhsContracting := [2]
  rhsContracting := [0]
  lhsNonContracting := [0, 1]
  rhsNonContracting := [1]
  lhsBatch := []
  rhsBatch := []
  wf := dot_S32x1x128_S128x128_S32x1x128_2_0_01_1_n_n_wf
def dot_S32x8192x128_S128x1_S32x8192x1_2_0_01_1_n_n : DotDims S32x8192x128 S128x1 S32x8192x1 where
  lhsContracting := [2]
  rhsContracting := [0]
  lhsNonContracting := [0, 1]
  rhsNonContracting := [1]
  lhsBatch := []
  rhsBatch := []
  wf := dot_S32x8192x128_S128x1_S32x8192x1_2_0_01_1_n_n_wf

class Facts : Prop extends Facts₀ where

variable [Facts]
-- ==== Proof.Attention.lean ====
/-
  Additive attention for one batch element, on the extended reals.

  For keys kk (8192 rows of 128), a query qq (128), values vv (8192 rows of 128), two square weight matrices W1, W2,
  a projection column Wf and a bias bf:
    hidden s e = tanh (sum_d kk s d * W1 d e + sum_d qq d * W2 d e)
    logit s    = sum_e hidden s e * Wf e + bf
    weight s   = exp (logit s - M) / sum_s' exp (logit s' - M),   M the maximum of the logits (starting from minus infinity)
    attend c   = sum_s weight s * vv s c
  Every sum is a finite sum in a commutative monoid, so no order or grouping is part of the definition, and the maximum
  is a fold of max over a finite set. Nothing here needs the entries to be finite.
  The last section reads the same functions off whole arrays carrying a leading batch axis of 32.
-/
import Idealize.ShloMosaic.PureOps.Ideal
import Idealize.ShloMosaic.Lib.ValueIdx
import Mathlib.Data.Finset.Fold

noncomputable section

namespace Cert.Attention

open Idealize.ShloMosaic Idealize.ShloMosaic.ValueIdx

/-- Minus infinity as the f32 word both programs start their maximum from. -/
abbrev negInf : EReal := Ideal.ofBits .f32 0xFF800000#32

section Batch

variable (kk : Fin 8192 → Fin 128 → EReal) (qq : Fin 128 → EReal) (W1 W2 : Fin 128 → Fin 128 → EReal)
  (Wf : Fin 128 → EReal) (bf : EReal) (vv : Fin 8192 → Fin 128 → EReal)

/-- Row s of the keys through W1, plus the query through W2, squashed. -/
def hidden (s : Fin 8192) (e : Fin 128) : EReal :=
  Ideal.tanh ((∑ d : Fin 128, kk s d * W1 d e) + ∑ d : Fin 128, qq d * W2 d e)

/-- The score of key s. -/
def logit (s : Fin 8192) : EReal := (∑ e : Fin 128, hidden kk qq W1 W2 s e * Wf e) + bf

/-- The largest score, as a fold of max from minus infinity. -/
def rowMax : EReal := (Finset.univ : Finset (Fin 8192)).fold max negInf (logit kk qq W1 W2 Wf bf)

/-- The shifted exponential of score s. -/
def expo (s : Fin 8192) : EReal := Ideal.exp (logit kk qq W1 W2 Wf bf s - rowMax kk qq W1 W2 Wf bf)

/-- The softmax weight of key s. -/
def weight (s : Fin 8192) : EReal :=
  Ideal.div (expo kk qq W1 W2 Wf bf s) (∑ s' : Fin 8192, expo kk qq W1 W2 Wf bf s')

/-- Column c of the weighted sum of the values. -/
def attend (c : Fin 128) : EReal := ∑ s : Fin 8192, weight kk qq W1 W2 Wf bf s * vv s c

/-- The maximum is at least what the fold started from, so taking max with minus infinity once more changes nothing. -/
theorem max_negInf_rowMax : max negInf (rowMax kk qq W1 W2 Wf bf) = rowMax kk qq W1 W2 Wf bf :=
  max_eq_right ((Finset.le_fold_max negInf).mpr (Or.inl le_rfl))

end Batch

/-! ## The same over arrays with a batch axis -/

section Arrays

variable (q : (⟨3, ![32, 1, 128]⟩ : Shape).Idx → EReal) (k v : (⟨3, ![32, 8192, 128]⟩ : Shape).Idx → EReal)
  (W1 W2 : (⟨2, ![128, 128]⟩ : Shape).Idx → EReal) (Wf : (⟨2, ![128, 1]⟩ : Shape).Idx → EReal)
  (bf : (⟨1, ![1]⟩ : Shape).Idx → EReal)

/-- The softmax weight of key s in batch b. -/
def weights (b : Fin 32) (s : Fin 8192) : EReal :=
  weight (fun s d => k (ix3 b s d)) (fun d => q (ix3 b (0 : Fin 1) d)) (fun d e => W1 (ix2 d e)) (fun d e => W2 (ix2 d e))
    (fun e => Wf (ix2 e (0 : Fin 1))) (bf (ix1 (0 : Fin 1))) s

/-- Column c of the attention output of batch b. -/
def context (b : Fin 32) (c : Fin 128) : EReal :=
  attend (fun s d => k (ix3 b s d)) (fun d => q (ix3 b (0 : Fin 1) d)) (fun d e => W1 (ix2 d e)) (fun d e => W2 (ix2 d e))
    (fun e => Wf (ix2 e (0 : Fin 1))) (bf (ix1 (0 : Fin 1))) (fun s d => v (ix3 b s d)) c

end Arrays

end Cert.Attention

end
-- ==== Proof.ReferenceValue.lean ====
/-
  The reference program, stage by stage, computes additive attention.

  Each stage of the reference is read at explicit coordinates (b, s, e): the two projections are sums over the
  contracted axis, the broadcasts repeat the query's row and the bias over the 8192 keys, the maximum over the keys is
  a fold of max from minus infinity (taking max with minus infinity once more changes nothing), the softmax divides the
  shifted exponentials by their sum (the sum starts from zero), and the output is the sum over the keys of weight times
  value (again from zero). So the reference's two results are the attention weights and the attention output, index by
  index, with no assumption on the entries.
-/
import proofs.«103153_j41747082117247_2_alg».proof.Proof.Gen.ReferenceIdeal.Read
import proofs.«103153_j41747082117247_2_alg».proof.Proof.Attention

noncomputable section

namespace Cert.ReferenceIdeal.RefValue

open Cert.ReferenceIdeal Cert.ReferenceIdeal.Gen Cert.ReferenceIdeal.Read Cert.Attention Idealize.ShloMosaic Idealize.ShloMosaic.ValueIdx

variable (x0 : (⟨S32x1x128, .f32⟩ : BufTy).Contents (Elt Ideal)) (x1 x2 : (⟨S32x8192x128, .f32⟩ : BufTy).Contents (Elt Ideal))
  (x3 x4 : (⟨S128x128, .f32⟩ : BufTy).Contents (Elt Ideal)) (x5 : (⟨S128x1, .f32⟩ : BufTy).Contents (Elt Ideal))
  (x6 : (⟨S1, .f32⟩ : BufTy).Contents (Elt Ideal))

/-- The keys through W1 at (b, s, e). -/
theorem v0_at (b : Fin 32) (s : Fin 8192) (e : Fin 128) :
    val_main_v0 (F := Ideal) x1 x3 (ix3 b s e) = ∑ d : Fin 128, x1 (ix3 b s d) * x3 (ix2 d e) := by
  rw [val_main_v0_apply]
  refine Finset.sum_congr rfl fun d _ => ?_
  have hl : lidx_main_v0 (ix3 b s e) d = ix3 b s d := funext fun a => by
    match a with | ⟨0, _⟩ => rfl | ⟨1, _⟩ => rfl | ⟨2, _⟩ => rfl
  have hr : ridx_main_v0 (ix3 b s e) d = ix2 d e := funext fun a => by
    match a with | ⟨0, _⟩ => rfl | ⟨1, _⟩ => rfl
  rw [hl, hr]

/-- The query through W2 at (b, 0, e). -/
theorem v1_at (b : Fin 32) (e : Fin 128) :
    val_main_v1 (F := Ideal) x0 x4 (ix3 b (0 : Fin 1) e) = ∑ d : Fin 128, x0 (ix3 b (0 : Fin 1) d) * x4 (ix2 d e) := by
  rw [val_main_v1_apply]
  refine Finset.sum_congr rfl fun d _ => ?_
  have hl : lidx_main_v1 (ix3 b (0 : Fin 1) e) d = ix3 b (0 : Fin 1) d := funext fun a => by
    match a with | ⟨0, _⟩ => rfl | ⟨1, _⟩ => rfl | ⟨2, _⟩ => rfl
  have hr : ridx_main_v1 (ix3 b (0 : Fin 1) e) d = ix2 d e := funext fun a => by
    match a with | ⟨0, _⟩ => rfl | ⟨1, _⟩ => rfl
  rw [hl, hr]

/-- The hidden activation at (b, s, e). -/
theorem v4_at (b : Fin 32) (s : Fin 8192) (e : Fin 128) :
    val_main_v4 (F := Ideal) x0 x1 x3 x4 (ix3 b s e)
      = hidden (fun s d => x1 (ix3 b s d)) (fun d => x0 (ix3 b (0 : Fin 1) d)) (fun d e => x3 (ix2 d e)) (fun d e => x4 (ix2 d e)) s e := by
  have h2 : idx_main_v2 (ix3 b s e) = ix3 b (0 : Fin 1) e := funext fun a => by
    match a with | ⟨0, _⟩ => rfl | ⟨1, _⟩ => rfl | ⟨2, _⟩ => rfl
  rw [val_main_v4_apply, val_main_v3_apply, v0_at, val_main_v2_apply, h2, v1_at]
  rfl

/-- The score of key s in batch b. -/
theorem v8_at (b : Fin 32) (s : Fin 8192) :
    val_main_v8 (F := Ideal) x0 x1 x3 x4 x5 x6 (ix3 b s (0 : Fin 1))
      = logit (fun s d => x1 (ix3 b s d)) (fun d => x0 (ix3 b (0 : Fin 1) d)) (fun d e => x3 (ix2 d e)) (fun d e => x4 (ix2 d e))
          (fun e => x5 (ix2 e (0 : Fin 1))) (x6 (ix1 (0 : Fin 1))) s := by
  rw [val_main_v8_apply, val_main_v5_apply, val_main_v7_apply, val_main_v6_apply]
  have hs : (∑ k : Fin 128, val_main_v4 (F := Ideal) x0 x1 x3 x4 (lidx_main_v5 (ix3 b s (0 : Fin 1)) k) * x5 (ridx_main_v5 (ix3 b s (0 : Fin 1)) k))
      = ∑ e : Fin 128, hidden (fun s d => x1 (ix3 b s d)) (fun d => x0 (ix3 b (0 : Fin 1) d)) (fun d e => x3 (ix2 d e)) (fun d e => x4 (ix2 d e)) s e
          * x5 (ix2 e (0 : Fin 1)) :=
    Finset.sum_congr rfl fun e _ => by
      have hl : lidx_main_v5 (ix3 b s (0 : Fin 1)) e = ix3 b s e := funext fun a => by
        match a with | ⟨0, _⟩ => rfl | ⟨1, _⟩ => rfl | ⟨2, _⟩ => rfl
      have hr : ridx_main_v5 (ix3 b s (0 : Fin 1)) e = ix2 e (0 : Fin 1) := funext fun a => by
        match a with | ⟨0, _⟩ => rfl | ⟨1, _⟩ => rfl
      rw [hl, hr, v4_at]
  have hb : idx_main_v6 (idx_main_v7 (ix3 b s (0 : Fin 1))) = ix1 (0 : Fin 1) := funext fun a => by
    match a with | ⟨0, _⟩ => rfl
  rw [hs, hb]
  rfl

/-- The reference's own witness that [32, 8192, 1] reduces along axis 1 to [32, 1]. -/
theorem reduces_keys : S32x8192x1.Reduces [1] S32x1 := by decide

/-- The reduced index (b, 0) with key coordinate s put back is (b, s, 0). -/
theorem lift_keys (b : Fin 32) (s : Fin 8192) :
    reduces_keys.lift (ix2 b (0 : Fin 1)) s = ix3 b s (0 : Fin 1) := funext fun a => Fin.ext (by
  match a with | ⟨0, _⟩ => rfl | ⟨1, _⟩ => rfl | ⟨2, _⟩ => rfl)

/-- The largest score of batch b: the reduce over the keys, then max with minus infinity. -/
theorem v11_at (b : Fin 32) :
    val_main_v11 (F := Ideal) x0 x1 x3 x4 x5 x6 (ix2 b (0 : Fin 1))
      = rowMax (fun s d => x1 (ix3 b s d)) (fun d => x0 (ix3 b (0 : Fin 1) d)) (fun d e => x3 (ix2 d e)) (fun d e => x4 (ix2 d e))
          (fun e => x5 (ix2 e (0 : Fin 1))) (x6 (ix1 (0 : Fin 1))) := by
  have h9 : val_main_v9 (F := Ideal) x0 x1 x3 x4 x5 x6 (ix2 b (0 : Fin 1))
      = rowMax (fun s d => x1 (ix3 b s d)) (fun d => x0 (ix3 b (0 : Fin 1) d)) (fun d e => x3 (ix2 d e)) (fun d e => x4 (ix2 d e))
          (fun e => x5 (ix2 e (0 : Fin 1))) (x6 (ix1 (0 : Fin 1))) := by
    unfold val_main_v9
    refine (Host.reduce_eq_fold_single FloatOps.maximumf _ _ reducesTo_S32x8192x1_S32x1_d1 reduces_keys h_S_ (ix2 b (0 : Fin 1))).trans ?_
    unfold rowMax
    refine congrArg (fun f => Finset.fold max negInf f (Finset.univ : Finset (Fin 8192))) (funext fun s => ?_)
    exact (congrArg (val_main_v8 (F := Ideal) x0 x1 x3 x4 x5 x6) (lift_keys b s)).trans (v8_at x0 x1 x3 x4 x5 x6 b s)
  rw [val_main_v11_apply, h9]
  exact max_negInf_rowMax _ _ _ _ _ _

/-- The shifted exponential of key s in batch b. -/
theorem v15_at (b : Fin 32) (s : Fin 8192) :
    val_main_v15 (F := Ideal) x0 x1 x3 x4 x5 x6 (ix3 b s (0 : Fin 1))
      = expo (fun s d => x1 (ix3 b s d)) (fun d => x0 (ix3 b (0 : Fin 1) d)) (fun d e => x3 (ix2 d e)) (fun d e => x4 (ix2 d e))
          (fun e => x5 (ix2 e (0 : Fin 1))) (x6 (ix1 (0 : Fin 1))) s := by
  have h : idx_main_v12 (idx_main_v13 (ix3 b s (0 : Fin 1))) = ix2 b (0 : Fin 1) := funext fun a => by
    match a with | ⟨0, _⟩ => rfl | ⟨1, _⟩ => rfl
  rw [val_main_v15_apply, val_main_v14_apply, v8_at, val_main_v13_apply, val_main_v12_apply, h, v11_at]
  rfl

/-- The softmax weight of key s in batch b. -/
theorem v19_at (b : Fin 32) (s : Fin 8192) :
    val_main_v19 (F := Ideal) x0 x1 x3 x4 x5 x6 (ix3 b s (0 : Fin 1)) = weights x0 x1 x3 x4 x5 x6 b s := by
  have h : idx_main_v17 (idx_main_v18 (ix3 b s (0 : Fin 1))) = ix2 b (0 : Fin 1) := funext fun a => by
    match a with | ⟨0, _⟩ => rfl | ⟨1, _⟩ => rfl
  have hsum : (∑ k : Fin 8192, val_main_v15 (F := Ideal) x0 x1 x3 x4 x5 x6 (idx_main_v16 (ix2 b (0 : Fin 1)) k))
      = ∑ s' : Fin 8192, expo (fun s d => x1 (ix3 b s d)) (fun d => x0 (ix3 b (0 : Fin 1) d)) (fun d e => x3 (ix2 d e)) (fun d e => x4 (ix2 d e))
          (fun e => x5 (ix2 e (0 : Fin 1))) (x6 (ix1 (0 : Fin 1))) s' :=
    Finset.sum_congr rfl fun k _ => by
      have hk : idx_main_v16 (ix2 b (0 : Fin 1)) k = ix3 b k (0 : Fin 1) := funext fun a => by
        match a with | ⟨0, _⟩ => rfl | ⟨1, _⟩ => rfl | ⟨2, _⟩ => rfl
      rw [hk, v15_at]
  rw [val_main_v19_apply, v15_at, val_main_v18_apply, val_main_v17_apply, h, val_main_v16_apply, hsum, val_main_cst_1_apply]
  show Ideal.div _ (Ideal.ofBits .f32 0x00000000#32 + _) = _
  rw [Ideal.ofBits_zero_f32, zero_add]
  rfl

/-- Column c of the attention output of batch b. -/
theorem v22_at (b : Fin 32) (c : Fin 128) :
    val_main_v22 (F := Ideal) x0 x1 x2 x3 x4 x5 x6 (ix2 b c) = context x0 x1 x2 x3 x4 x5 x6 b c := by
  have hsum : (∑ k : Fin 8192, val_main_v21 (F := Ideal) x0 x1 x2 x3 x4 x5 x6 (idx_main_v22 (ix2 b c) k))
      = ∑ s : Fin 8192, weights x0 x1 x3 x4 x5 x6 b s * x2 (ix3 b s c) :=
    Finset.sum_congr rfl fun k _ => by
      have hk : idx_main_v22 (ix2 b c) k = ix3 b k c := funext fun a => by
        match a with | ⟨0, _⟩ => rfl | ⟨1, _⟩ => rfl | ⟨2, _⟩ => rfl
      have h20 : idx_main_v20 (ix3 b k c) = ix3 b k (0 : Fin 1) := funext fun a => by
        match a with | ⟨0, _⟩ => rfl | ⟨1, _⟩ => rfl | ⟨2, _⟩ => rfl
      rw [hk, val_main_v21_apply, val_main_v20_apply, h20, v19_at]
      rfl
  rw [val_main_v22_apply, hsum, val_main_cst_2_apply]
  show Ideal.ofBits .f32 0x00000000#32 + _ = _
  rw [Ideal.ofBits_zero_f32, zero_add]
  rfl

/-- The reference's second result is the array of attention weights. -/
theorem weights_eq :
    val_main_v19 (F := Ideal) x0 x1 x3 x4 x5 x6 = fun i => weights x0 x1 x3 x4 x5 x6 (i 0) (i 1) := by
  funext i
  obtain ⟨b, s, z, rfl⟩ : ∃ (b : Fin 32) (s : Fin 8192) (z : Fin 1), i = ix3 b s z := ⟨i 0, i 1, i 2, eq_ix3 i⟩
  obtain rfl : z = 0 := Subsingleton.elim _ _
  exact v19_at x0 x1 x3 x4 x5 x6 b s

/-- The reference's first result is the array of attention outputs. -/
theorem context_eq :
    val_main_v22 (F := Ideal) x0 x1 x2 x3 x4 x5 x6 = fun i => context x0 x1 x2 x3 x4 x5 x6 (i 0) (i 1) := by
  funext i
  obtain ⟨b, c, rfl⟩ : ∃ (b : Fin 32) (c : Fin 128), i = ix2 b c := ⟨i 0, i 1, eq_ix2 i⟩
  exact v22_at x0 x1 x2 x3 x4 x5 x6 b c

end Cert.ReferenceIdeal.RefValue

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibSoftmaxRow.lean ====
/-
  A softmax along the lanes of a one-row matrix, read at an index, at the ideal instance.

  For a [1, n] vector x, a kernel takes the maximum over axis 1 (a multi_reduction into [1]), puts the unit axis back
  (a shape cast [1] to [1, 1]) and broadcasts it along the row, subtracts, exponentiates, sums over axis 1 the same way,
  and divides. Read at (0, j) on the extended reals this is
      exp (x(0, j) - M) / sum_j' exp (x(0, j') - M),   M = the fold of max over j' of x(0, j') from the accumulator's value,
  with no condition on x: the reductions are a fold of max and a finite sum over the lane coordinate.
  Also here: the keepdims forms of a one-entry vector ([1] to [1, 1] to [1, n], and to [n, 1]) read its entry, and the
  reduced index (0) with lane j put back is (0, j).
-/
import Idealize.ShloMosaic.PureOps.Ideal.Laws
import Idealize.ShloMosaic.Lib.ValueLayout

noncomputable section

namespace Idealize.ShloMosaic.SoftmaxRow

open Idealize.ShloMosaic Idealize.ShloMosaic.ValueIdx

variable {n : Nat} {φ : FTy}

/-- The reduced index with lane `j` put back on axis 1 is (0, j). -/
theorem lift_lane (h : (⟨2, ![1, n]⟩ : Shape).Reduces [1] ⟨1, ![1]⟩) (u : Fin 1) (j : Fin n) :
    h.lift (ix1 u) j = ix2 u j := funext fun a => Fin.ext (by
  match a with | ⟨0, _⟩ => rfl | ⟨1, _⟩ => rfl)

/-- A one-entry vector cast to [1, 1] and broadcast along a row of n lanes reads its entry. -/
theorem keepdims_row {α : Type} (x : (⟨1, ![1]⟩ : Shape).Idx → α) (hc : (⟨1, ![1]⟩ : Shape).ShapeCasts ⟨2, ![1, 1]⟩)
    (hb : (⟨2, ![1, 1]⟩ : Shape).Broadcasts ⟨2, ![1, n]⟩) (u : Fin 1) (j : Fin n) :
    broadcastTo ⟨2, ![1, n]⟩ (shapeCast ⟨2, ![1, 1]⟩ x hc) hb (ix2 u j) = x (ix1 (0 : Fin 1)) := by
  refine (broadcastTo_apply _ hb (ix2 u j) (ix2 (0 : Fin 1) (0 : Fin 1)) fun a => ?_).trans
    (shapeCast_a_1a_apply x hc (0 : Fin 1) (0 : Fin 1))
  match a with
  | ⟨0, _⟩ => rfl
  | ⟨1, _⟩ => rfl

/-- A one-entry vector cast to [1, 1] and broadcast down a column of n rows reads its entry. -/
theorem keepdims_col {α : Type} (x : (⟨1, ![1]⟩ : Shape).Idx → α) (hc : (⟨1, ![1]⟩ : Shape).ShapeCasts ⟨2, ![1, 1]⟩)
    (hb : (⟨2, ![1, 1]⟩ : Shape).Broadcasts ⟨2, ![n, 1]⟩) (i : Fin n) (u : Fin 1) :
    broadcastTo ⟨2, ![n, 1]⟩ (shapeCast ⟨2, ![1, 1]⟩ x hc) hb (ix2 i u) = x (ix1 (0 : Fin 1)) := by
  refine (broadcastTo_apply _ hb (ix2 i u) (ix2 (0 : Fin 1) (0 : Fin 1)) fun a => ?_).trans
    (shapeCast_a_1a_apply x hc (0 : Fin 1) (0 : Fin 1))
  match a with
  | ⟨0, _⟩ => rfl
  | ⟨1, _⟩ => rfl

/-- The maximum over the lanes of a one-row matrix: the fold of max over the lane coordinate. -/
theorem rowMax_apply (x : FVec Ideal ⟨2, ![1, n]⟩ φ) (acc : BitVec φ.bits)
    (h : (⟨2, ![1, n]⟩ : Shape).Reduces [1] ⟨1, ![1]⟩) (hφ : FKind.Formats φ) (hacc : acc = FKind.maximumf.neutral φ hφ) :
    multiReduction .maximumf [1] ⟨1, ![1]⟩ x acc h hφ hacc (ix1 (0 : Fin 1))
      = (Finset.univ : Finset (Fin n)).fold max (Ideal.ofBits φ acc) (fun j => x (ix2 (0 : Fin 1) j)) := by
  refine (Ideal.multiReduction_maximumf_single x acc h hφ hacc (ix1 (0 : Fin 1))).trans ?_
  refine congrArg (fun f => Finset.fold max (Ideal.ofBits φ acc) f (Finset.univ : Finset (Fin n))) (funext fun j => ?_)
  exact congrArg x (lift_lane h (0 : Fin 1) j)

/-- The sum over the lanes of a one-row matrix: the finite sum over the lane coordinate. -/
theorem rowSum_apply (x : FVec Ideal ⟨2, ![1, n]⟩ φ) (acc : BitVec φ.bits)
    (h : (⟨2, ![1, n]⟩ : Shape).Reduces [1] ⟨1, ![1]⟩) (hφ : FKind.Formats φ) (hacc : acc = FKind.add.neutral φ hφ) :
    multiReduction .add [1] ⟨1, ![1]⟩ x acc h hφ hacc (ix1 (0 : Fin 1)) = ∑ j : Fin n, x (ix2 (0 : Fin 1) j) := by
  refine (Ideal.multiReduction_add_single x acc h hφ hacc (ix1 (0 : Fin 1))).trans ?_
  refine Finset.sum_congr rfl fun j _ => ?_
  exact congrArg x (lift_lane h (0 : Fin 1) j)

/-- The softmax along the lanes of a one-row matrix, as a kernel spells it, read at lane `j`. -/
theorem softmax_row_apply (x : FVec Ideal ⟨2, ![1, n]⟩ φ) (accM accS : BitVec φ.bits)
    (h : (⟨2, ![1, n]⟩ : Shape).Reduces [1] ⟨1, ![1]⟩) (hφ : FKind.Formats φ)
    (hM : accM = FKind.maximumf.neutral φ hφ) (hS : accS = FKind.add.neutral φ hφ)
    (hc : (⟨1, ![1]⟩ : Shape).ShapeCasts ⟨2, ![1, 1]⟩) (hb : (⟨2, ![1, 1]⟩ : Shape).Broadcasts ⟨2, ![1, n]⟩) (j : Fin n) :
    divf (exp (subf x (broadcastTo ⟨2, ![1, n]⟩ (shapeCast ⟨2, ![1, 1]⟩ (multiReduction .maximumf [1] ⟨1, ![1]⟩ x accM h hφ hM) hc) hb)))
        (broadcastTo ⟨2, ![1, n]⟩ (shapeCast ⟨2, ![1, 1]⟩
          (multiReduction .add [1] ⟨1, ![1]⟩
            (exp (subf x (broadcastTo ⟨2, ![1, n]⟩ (shapeCast ⟨2, ![1, 1]⟩ (multiReduction .maximumf [1] ⟨1, ![1]⟩ x accM h hφ hM) hc) hb)))
            accS h hφ hS) hc) hb) (ix2 (0 : Fin 1) j)
      = Ideal.div (Ideal.exp (x (ix2 (0 : Fin 1) j) - (Finset.univ : Finset (Fin n)).fold max (Ideal.ofBits φ accM) (fun j' => x (ix2 (0 : Fin 1) j'))))
          (∑ j' : Fin n, Ideal.exp (x (ix2 (0 : Fin 1) j') - (Finset.univ : Finset (Fin n)).fold max (Ideal.ofBits φ accM) (fun j'' => x (ix2 (0 : Fin 1) j'')))) := by
  have hsh : ∀ j' : Fin n, exp (subf x (broadcastTo ⟨2, ![1, n]⟩ (shapeCast ⟨2, ![1, 1]⟩ (multiReduction .maximumf [1] ⟨1, ![1]⟩ x accM h hφ hM) hc) hb)) (ix2 (0 : Fin 1) j')
      = Ideal.exp (x (ix2 (0 : Fin 1) j') - (Finset.univ : Finset (Fin n)).fold max (Ideal.ofBits φ accM) (fun j'' => x (ix2 (0 : Fin 1) j''))) := by
    intro j'
    show Ideal.exp (x (ix2 (0 : Fin 1) j') - broadcastTo ⟨2, ![1, n]⟩ (shapeCast ⟨2, ![1, 1]⟩ (multiReduction .maximumf [1] ⟨1, ![1]⟩ x accM h hφ hM) hc) hb (ix2 (0 : Fin 1) j')) = _
    rw [keepdims_row, rowMax_apply]
  show Ideal.div (exp (subf x _) (ix2 (0 : Fin 1) j)) (broadcastTo ⟨2, ![1, n]⟩ (shapeCast ⟨2, ![1, 1]⟩ _ hc) hb (ix2 (0 : Fin 1) j)) = _
  rw [hsh, keepdims_row, rowSum_apply]
  exact congrArg _ (Finset.sum_congr rfl fun j' _ => hsh j')

end Idealize.ShloMosaic.SoftmaxRow

end
-- ==== Proof.BodyValue.lean ====
/-
  What the kernel's body computes from the blocks it loads, index by index.

  At one grid point the body holds one batch element: a key block and a value block of 8192 rows by 128, a query row
  of 128, the two square weight matrices, the projection column and the bias. Its first store is the row of softmax
  weights of the 8192 keys; its second is that row times the value block. Every change of float format is the identity
  on the extended reals, each matrix product into the zero accumulator is a plain sum over the contracted coordinate,
  the transposition of the [8192, 1] column of scores into a [1, 8192] row only renames the index, and the two lane
  reductions are a fold of max and a finite sum. So the two stored blocks are the attention weights and the attention
  output of that batch element, as functions of the blocks' entries.
-/
import proofs.«103153_j41747082117247_2_alg».proof.Proof.Gen.KernelIdeal.Skeleton
import proofs.«103153_j41747082117247_2_alg».proof.Proof.Attention
import proofs.«103153_j41747082117247_2_alg».proof.Proof.LibMatmulRows
import proofs.«103153_j41747082117247_2_alg».proof.Proof.LibSoftmaxRow
import Idealize.ShloMosaic.Lib.ValueLayout

noncomputable section

namespace Cert.KernelIdeal.BodyValue

open Cert.KernelIdeal Cert.KernelIdeal.Gen Cert.Attention Idealize.ShloMosaic Idealize.ShloMosaic.ValueIdx

/-! ## The four products' operand indices on their free axes -/

theorem keysW1_l0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem keysW1_r1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

theorem queryW2_l0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem queryW2_r1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

theorem hiddenWf_l0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem hiddenWf_r1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

theorem weightsV_l0 (i : S1x128.Idx) (q : dot_S1x8192_S8192x128_S1x128_1_0_0_1_n_n.contr.Idx) :
    (dot_S1x8192_S8192x128_S1x128_1_0_0_1_n_n.lhsIdx i q 0).val = (i 0).val := by
  unfold DotDims.lhsIdx
  rw [dif_neg (show ¬(0 : Fin S1x8192.rank) ∈ dot_S1x8192_S8192x128_S1x128_1_0_0_1_n_n.lhsBatch by decide), dif_pos (show (0 : Fin S1x8192.rank) ∈ dot_S1x8192_S8192x128_S1x128_1_0_0_1_n_n.lhsNonContracting by decide)]
  rfl
theorem weightsV_r1 (i : S1x128.Idx) (q : dot_S1x8192_S8192x128_S1x128_1_0_0_1_n_n.contr.Idx) :
    (dot_S1x8192_S8192x128_S1x128_1_0_0_1_n_n.rhsIdx i q 1).val = (i 1).val := by
  unfold DotDims.rhsIdx
  rw [dif_neg (show ¬(1 : Fin S8192x128.rank) ∈ dot_S1x8192_S8192x128_S1x128_1_0_0_1_n_n.rhsBatch by decide), dif_pos (show (1 : Fin S8192x128.rank) ∈ dot_S1x8192_S8192x128_S1x128_1_0_0_1_n_n.rhsNonContracting by decide)]
  rfl

/-! ## The scores -/

variable (kb vb : Vec Ideal S1x8192x128 .f32) (qb : Vec Ideal S1x1x128 .f32) (w1 w2 : Vec Ideal S128x128 .f32)
  (wf : Vec Ideal S128x1 .f32) (bv : Vec Ideal S1 .f32)

/-- The [8192, 128] block of hidden activations the body forms: keys through W1, plus the query's row through W2
    repeated over the keys, squashed. -/
def hiddenBlock : FVec Ideal S8192x128 .f32 :=
  tanh (addf
    (matmul dot_S8192x128_S128x128_S8192x128_1_0_0_1_n_n none
      (truncf .bf16 (shapeCast S8192x128 kb shapeCasts_S1x8192x128_S8192x128) bitsLt_bf16_f32)
      (truncf .bf16 w1 bitsLt_bf16_f32) (constant (F := Ideal) S8192x128 .f32 0x00000000#32))
    (broadcastTo S8192x128
      (matmul dot_S1x128_S128x128_S1x128_1_0_0_1_n_n none
        (truncf .bf16 (shapeCast S1x128 qb shapeCasts_S1x1x128_S1x128) bitsLt_bf16_f32)
        (truncf .bf16 w2 bitsLt_bf16_f32) (constant (F := Ideal) S1x128 .f32 0x00000000#32))
      broadcasts_S1x128_S8192x128))

/-- The [1, 8192] row of scores: the hidden block through the projection column, plus the bias, laid along the lanes. -/
def scoreRow : FVec Ideal S1x8192 .f32 :=
  transpose S1x8192 [1, 0]
    (addf
      (matmul dot_S8192x128_S128x1_S8192x1_1_0_0_1_n_n none
        (truncf .bf16 (hiddenBlock kb qb w1 w2) bitsLt_bf16_f32) (truncf .bf16 wf bitsLt_bf16_f32)
        (constant (F := Ideal) S8192x1 .f32 0x00000000#32))
      (broadcastTo S8192x1 (shapeCast S1x1 bv shapeCasts_S1_S1x1) broadcasts_S1x1_S8192x1))
    transposes_S8192x1_p1_0_S1x8192

/-- The hidden block at (s, e). -/
theorem hiddenBlock_at (s : Fin 8192) (e : Fin 128) :
    hiddenBlock kb qb w1 w2 (ix2 s e)
      = hidden (fun s d => kb (ix3 (0 : Fin 1) s d)) (fun d => qb (ix3 (0 : Fin 1) (0 : Fin 1) d)) (fun d e => w1 (ix2 d e))
          (fun d e => w2 (ix2 d e)) s e := by
  unfold hiddenBlock Attention.hidden
  show Ideal.tanh (matmul dot_S8192x128_S128x128_S8192x128_1_0_0_1_n_n none _ _ (constant (F := Ideal) S8192x128 .f32 0x00000000#32) (ix2 s e)
      + broadcastTo S8192x128 _ broadcasts_S1x128_S8192x128 (ix2 s e)) = _
  rw [broadcastTo_1b_ab_apply]
  simp only [matmul]
  rw [MatmulRows.matmul_zero_apply dot_S8192x128_S128x128_S8192x128_1_0_0_1_n_n none rfl rfl rfl rfl keysW1_l0 keysW1_r1,
    MatmulRows.matmul_zero_apply dot_S1x128_S128x128_S1x128_1_0_0_1_n_n none rfl rfl rfl rfl queryW2_l0 queryW2_r1]
  refine congrArg Ideal.tanh (congrArg₂ (· + ·) (Finset.sum_congr rfl fun d _ => ?_) (Finset.sum_congr rfl fun d _ => ?_))
  · show shapeCast S8192x128 kb shapeCasts_S1x8192x128_S8192x128 (ix2 s d) * w1 (ix2 d e) = _
    rw [shapeCast_1ab_ab_apply]
  · show shapeCast S1x128 qb shapeCasts_S1x1x128_S1x128 (ix2 (0 : Fin 1) d) * w2 (ix2 d e) = _
    rw [shapeCast_1ab_ab_apply]

/-- The score row at lane s is the score of key s. -/
theorem scoreRow_at (s : Fin 8192) :
    scoreRow kb qb w1 w2 wf bv (ix2 (0 : Fin 1) s)
      = logit (fun s d => kb (ix3 (0 : Fin 1) s d)) (fun d => qb (ix3 (0 : Fin 1) (0 : Fin 1) d)) (fun d e => w1 (ix2 d e))
          (fun d e => w2 (ix2 d e)) (fun e => wf (ix2 e (0 : Fin 1))) (bv (ix1 (0 : Fin 1))) s := by
  unfold scoreRow logit
  rw [transpose_ix2_apply]
  show matmul dot_S8192x128_S128x1_S8192x1_1_0_0_1_n_n none _ _ (constant (F := Ideal) S8192x1 .f32 0x00000000#32) (ix2 s (0 : Fin 1))
      + broadcastTo S8192x1 (shapeCast S1x1 bv shapeCasts_S1_S1x1) broadcasts_S1x1_S8192x1 (ix2 s (0 : Fin 1)) = _
  rw [SoftmaxRow.keepdims_col]
  simp only [matmul]
  rw [MatmulRows.matmul_zero_apply dot_S8192x128_S128x1_S8192x1_1_0_0_1_n_n none rfl rfl rfl rfl hiddenWf_l0 hiddenWf_r1]
  refine congrArg (· + bv (ix1 (0 : Fin 1))) (Finset.sum_congr rfl fun e _ => ?_)
  show hiddenBlock kb qb w1 w2 (ix2 s e) * wf (ix2 e (0 : Fin 1)) = _
  rw [hiddenBlock_at]

/-! ## The payloads -/

/-- The body's softmax term is the row softmax of the score row. -/
theorem pay4_eq :
    k0_pay4 (F := Ideal) kb qb w1 w2 wf bv
      = divf (exp (subf (scoreRow kb qb w1 w2 wf bv)
            (broadcastTo S1x8192 (shapeCast S1x1 (multiReduction .maximumf [1] S1 (scoreRow kb qb w1 w2 wf bv) 0xFF800000#32 reduces_S1x8192_S1 (.inl rfl) rfl) shapeCasts_S1_S1x1) broadcasts_S1x1_S1x8192)))
          (broadcastTo S1x8192 (shapeCast S1x1
            (multiReduction .add [1] S1
              (exp (subf (scoreRow kb qb w1 w2 wf bv)
                (broadcastTo S1x8192 (shapeCast S1x1 (multiReduction .maximumf [1] S1 (scoreRow kb qb w1 w2 wf bv) 0xFF800000#32 reduces_S1x8192_S1 (.inl rfl) rfl) shapeCasts_S1_S1x1) broadcasts_S1x1_S1x8192)))
              0x00000000#32 reduces_S1x8192_S1 (.inl rfl) rfl) shapeCasts_S1_S1x1) broadcasts_S1x1_S1x8192) := rfl

/-- The softmax row at lane s is the attention weight of key s. -/
theorem pay4_at (s : Fin 8192) :
    k0_pay4 (F := Ideal) kb qb w1 w2 wf bv (ix2 (0 : Fin 1) s)
      = weight (fun s d => kb (ix3 (0 : Fin 1) s d)) (fun d => qb (ix3 (0 : Fin 1) (0 : Fin 1) d)) (fun d e => w1 (ix2 d e))
          (fun d e => w2 (ix2 d e)) (fun e => wf (ix2 e (0 : Fin 1))) (bv (ix1 (0 : Fin 1))) s := by
  rw [pay4_eq]
  refine (SoftmaxRow.softmax_row_apply (scoreRow kb qb w1 w2 wf bv) 0xFF800000#32 0x00000000#32 reduces_S1x8192_S1 (.inl rfl) rfl rfl
    shapeCasts_S1_S1x1 broadcasts_S1x1_S1x8192 s).trans ?_
  unfold weight expo rowMax
  simp only [scoreRow_at]

/-- The first stored block, at (0, 0, s): the softmax row at lane s. -/
theorem pay1_at (x : FVec Ideal S1x8192 .f32) (u z : Fin 1) (s : Fin 8192) :
    k0_pay1 (F := Ideal) x (ix3 u z s) = x (ix2 z s) := by
  unfold k0_pay1
  exact shapeCast_ab_1ab_apply x shapeCasts_S1x8192_S1x1x8192 u z s

/-- The value block with its unit axis dropped, at (s, c). -/
theorem pay3_at (s : Fin 8192) (c : Fin 128) : k0_pay3 (F := Ideal) vb (ix2 s c) = vb (ix3 (0 : Fin 1) s c) := by
  unfold k0_pay3
  exact shapeCast_1ab_ab_apply vb shapeCasts_S1x8192x128_S8192x128 s c

/-- The second stored block, at (0, 0, c): the sum over the keys of the softmax row times column c of the values. -/
theorem pay2_at (y : FVec Ideal S8192x128 .f32) (x : FVec Ideal S1x8192 .f32) (u z : Fin 1) (c : Fin 128) :
    k0_pay2 (F := Ideal) y x (ix3 u z c) = ∑ s : Fin 8192, x (ix2 z s) * y (ix2 s c) := by
  unfold k0_pay2
  refine (shapeCast_ab_1ab_apply _ shapeCasts_S1x128_S1x1x128 u z c).trans ?_
  simp only [matmul]
  rw [MatmulRows.matmul_zero_apply dot_S1x8192_S8192x128_S1x128_1_0_0_1_n_n none rfl rfl rfl rfl weightsV_l0 weightsV_r1]
  rfl

end Cert.KernelIdeal.BodyValue

end
-- ==== Proof.StoredBlocks.lean ====
/-
  The two blocks one grid point stores, as functions of the blocks it loads.

  The body loads each of its seven input buffers whole and stores each of its two output buffers whole, once. So the
  block left in the second output's buffer is the row of softmax weights of that batch element, and the block left in
  the first output's buffer is that row times the value block: at (0, 0, s) the weight of key s, at (0, 0, c) column c
  of the weighted sum of the values.
-/
import proofs.«103153_j41747082117247_2_alg».proof.Proof.Gen.KernelIdeal.Frame
import proofs.«103153_j41747082117247_2_alg».proof.Proof.BodyValue
import Idealize.ShloMosaic.Lib.Pipeline.Value

noncomputable section

namespace Cert.KernelIdeal.StoredBlocks

open Cert.KernelIdeal Cert.KernelIdeal.Gen Cert.Attention Idealize.ShloMosaic Idealize.ShloMosaic.ValueIdx

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

variable (x0 : Vec Ideal S1x1x128 .f32) (x1 x2 : Vec Ideal S1x8192x128 .f32) (x3 x4 : Vec Ideal S128x128 .f32)
  (x5 : Vec Ideal S128x1 .f32) (x6 : Vec Ideal S1 .f32)

/-- The block of weights a point stores, at lane s: the softmax weight of key s of the loaded batch element. -/
theorem weights_block_at (u z : Fin 1) (s : Fin 8192) :
    out0_8 (F := Ideal) x0 x1 x2 x3 x4 x5 x6 (ix3 u z s)
      = weight (fun s d => x1 (ix3 (0 : Fin 1) s d)) (fun d => x0 (ix3 (0 : Fin 1) (0 : Fin 1) d)) (fun d e => x3 (ix2 d e))
          (fun d e => x4 (ix2 d e)) (fun e => x5 (ix2 e (0 : Fin 1))) (x6 (ix1 (0 : Fin 1))) s := by
  obtain rfl : z = 0 := Subsingleton.elim _ _
  unfold out0_8
  rw [View.canon_unit_zero zero3]
  simp only [View.ld_unit_zero (S := S1x8192x128) zero3, View.ld_unit_zero (S := S1x1x128) zero3,
    View.ld_unit_zero (S := S128x128) zero2, View.ld_unit_zero (S := S128x1) zero2, View.ld_unit_zero (S := S1) zero1]
  rw [BodyValue.pay1_at]
  exact BodyValue.pay4_at x1 x0 x3 x4 x5 x6 s

/-- The block of outputs a point stores, at column c: the weighted sum over the keys of column c of the values. -/
theorem context_block_at (u z : Fin 1) (c : Fin 128) :
    out0_7 (F := Ideal) x0 x1 x2 x3 x4 x5 x6 (ix3 u z c)
      = attend (fun s d => x1 (ix3 (0 : Fin 1) s d)) (fun d => x0 (ix3 (0 : Fin 1) (0 : Fin 1) d)) (fun d e => x3 (ix2 d e))
          (fun d e => x4 (ix2 d e)) (fun e => x5 (ix2 e (0 : Fin 1))) (x6 (ix1 (0 : Fin 1)))
          (fun s d => x2 (ix3 (0 : Fin 1) s d)) c := by
  obtain rfl : z = 0 := Subsingleton.elim _ _
  unfold out0_7
  rw [View.canon_unit_zero zero3]
  simp only [View.ld_unit_zero (S := S1x8192x128) zero3, View.ld_unit_zero (S := S1x1x128) zero3,
    View.ld_unit_zero (S := S128x128) zero2, View.ld_unit_zero (S := S128x1) zero2, View.ld_unit_zero (S := S1) zero1]
  rw [BodyValue.pay2_at]
  unfold attend
  refine Finset.sum_congr rfl fun s _ => ?_
  rw [BodyValue.pay4_at, BodyValue.pay3_at]

end Cert.KernelIdeal.StoredBlocks

end
-- ==== Proof.ArrayValue.lean ====
/-
  From the stored blocks to the two output arrays of the region.

  The grid has one point per batch element. At point t every window of the three batched inputs and of the two outputs
  sits at block (t, 0, 0), and the four weight windows at block zero, so the blocks a point loads are batch element t
  of q, k, v and the whole of W1, W2, Wf, bf, and the blocks it stores are batch element t of the two outputs. Each
  output's blocks tile its array (row b is written by point b), so after the last point the second output holds the
  attention weights of every batch element and the first the attention outputs.
-/
import proofs.«103153_j41747082117247_2_alg».proof.Proof.StoredBlocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.Attention Idealize.ShloMosaic.ValueIdx

variable (m : (ℓ : Loc nD τ sig) → Buf (Elt Ideal) ℓ)

/-- The batch element a grid point works on. -/
def batch (t : Fin cfg0.N) : Fin 32 := ⟨t.val, lt_of_lt_of_eq t.isLt N_0⟩

/-! ## The printed index maps, decided over the grid -/

theorem index_q : ∀ t : Fin cfg0.N, win0_0.index t (0 : Fin 3) = t.val ∧ win0_0.index t (1 : Fin 3) = 0 ∧ win0_0.index t (2 : Fin 3) = 0 :=
  (by decide +kernel : ∀ t : Fin grid0.N, _)
theorem index_k : ∀ t : Fin cfg0.N, win0_1.index t (0 : Fin 3) = t.val ∧ win0_1.index t (1 : Fin 3) = 0 ∧ win0_1.index t (2 : Fin 3) = 0 :=
  (by decide +kernel : ∀ t : Fin grid0.N, _)
theorem index_v : ∀ t : Fin cfg0.N, win0_2.index t (0 : Fin 3) = t.val ∧ win0_2.index t (1 : Fin 3) = 0 ∧ win0_2.index t (2 : Fin 3) = 0 :=
  (by decide +kernel : ∀ t : Fin grid0.N, _)
theorem index_W1 : ∀ t : Fin cfg0.N, win0_3.index t (0 : Fin 2) = 0 ∧ win0_3.index t (1 : Fin 2) = 0 :=
  (by decide +kernel : ∀ t : Fin grid0.N, _)
theorem index_W2 : ∀ t : Fin cfg0.N, win0_4.index t (0 : Fin 2) = 0 ∧ win0_4.index t (1 : Fin 2) = 0 :=
  (by decide +kernel : ∀ t : Fin grid0.N, _)
theorem index_Wf : ∀ t : Fin cfg0.N, win0_5.index t (0 : Fin 2) = 0 ∧ win0_5.index t (1 : Fin 2) = 0 :=
  (by decide +kernel : ∀ t : Fin grid0.N, _)
theorem index_bf : ∀ t : Fin cfg0.N, win0_6.index t (0 : Fin 1) = 0 :=
  (by decide +kernel : ∀ t : Fin grid0.N, _)
theorem index_out : ∀ t : Fin cfg0.N, win0_7.index t (0 : Fin 3) = t.val ∧ win0_7.index t (1 : Fin 3) = 0 ∧ win0_7.index t (2 : Fin 3) = 0 :=
  (by decide +kernel : ∀ t : Fin grid0.N, _)
theorem index_wts : ∀ t : Fin cfg0.N, win0_8.index t (0 : Fin 3) = t.val ∧ win0_8.index t (1 : Fin 3) = 0 ∧ win0_8.index t (2 : Fin 3) = 0 :=
  (by decide +kernel : ∀ t : Fin grid0.N, _)

/-! ## The blocks a point loads -/

/-- The query block at point t is row (t, 0) of q. -/
theorem query_block (c : Dev nD) (t : Fin cfg0.N) (u z : Fin 1) (d : Fin 128) :
    (iblk m c 0 t : Vec Ideal S1x1x128 .f32) (ix3 u z d)
      = (m ((c : Thread nD τ).loc main_arg0) : S32x1x128.Idx → Elt Ideal .f32) (ix3 (batch t) (0 : Fin 1) d) := by
  obtain ⟨e0, e1, e2⟩ := index_q t
  unfold iblk
  rw [View.read_apply]
  show (m ((c : Thread nD τ).loc main_arg0) : S32x1x128.Idx → Elt Ideal .f32) _ = _
  refine congrArg (m ((c : Thread nD τ).loc main_arg0) : S32x1x128.Idx → Elt Ideal .f32) (funext fun a => Fin.ext ?_)
  have hu := u.isLt
  have hz := z.isLt
  match a with
  | ⟨0, _⟩ => show win0_0.index t (0 : Fin 3) * 1 + 1 * u.val = t.val; rw [e0]; omega
  | ⟨1, _⟩ => show win0_0.index t (1 : Fin 3) * 1 + 1 * z.val = 0; rw [e1]; omega
  | ⟨2, _⟩ => show win0_0.index t (2 : Fin 3) * 128 + 1 * d.val = d.val; rw [e2]; omega

/-- The key block at point t is batch element t of k. -/
theorem keys_block (c : Dev nD) (t : Fin cfg0.N) (u : Fin 1) (s : Fin 8192) (d : Fin 128) :
    (iblk m c 1 t : Vec Ideal S1x8192x128 .f32) (ix3 u s d)
      = (m ((c : Thread nD τ).loc main_arg1) : S32x8192x128.Idx → Elt Ideal .f32) (ix3 (batch t) s d) := by
  obtain ⟨e0, e1, e2⟩ := index_k t
  unfold iblk
  rw [View.read_apply]
  show (m ((c : Thread nD τ).loc main_arg1) : S32x8192x128.Idx → Elt Ideal .f32) _ = _
  refine congrArg (m ((c : Thread nD τ).loc main_arg1) : S32x8192x128.Idx → Elt Ideal .f32) (funext fun a => Fin.ext ?_)
  have hu := u.isLt
  match a with
  | ⟨0, _⟩ => show win0_1.index t (0 : Fin 3) * 1 + 1 * u.val = t.val; rw [e0]; omega
  | ⟨1, _⟩ => show win0_1.index t (1 : Fin 3) * 8192 + 1 * s.val = s.val; rw [e1]; omega
  | ⟨2, _⟩ => show win0_1.index t (2 : Fin 3) * 128 + 1 * d.val = d.val; rw [e2]; omega

/-- The value block at point t is batch element t of v. -/
theorem values_block (c : Dev nD) (t : Fin cfg0.N) (u : Fin 1) (s : Fin 8192) (d : Fin 128) :
    (iblk m c 2 t : Vec Ideal S1x8192x128 .f32) (ix3 u s d)
      = (m ((c : Thread nD τ).loc main_arg2) : S32x8192x128.Idx → Elt Ideal .f32) (ix3 (batch t) s d) := by
  obtain ⟨e0, e1, e2⟩ := index_v t
  unfold iblk
  rw [View.read_apply]
  show (m ((c : Thread nD τ).loc main_arg2) : S32x8192x128.Idx → Elt Ideal .f32) _ = _
  refine congrArg (m ((c : Thread nD τ).loc main_arg2) : S32x8192x128.Idx → Elt Ideal .f32) (funext fun a => Fin.ext ?_)
  have hu := u.isLt
  match a with
  | ⟨0, _⟩ => show win0_2.index t (0 : Fin 3) * 1 + 1 * u.val = t.val; rw [e0]; omega
  | ⟨1, _⟩ => show win0_2.index t (1 : Fin 3) * 8192 + 1 * s.val = s.val; rw [e1]; omega
  | ⟨2, _⟩ => show win0_2.index t (2 : Fin 3) * 128 + 1 * d.val = d.val; rw [e2]; omega

/-- The W1 block at every point is W1. -/
theorem W1_block (c : Dev nD) (t : Fin cfg0.N) (d e : Fin 128) :
    (iblk m c 3 t : Vec Ideal S128x128 .f32) (ix2 d e)
      = (m ((c : Thread nD τ).loc main_arg3) : S128x128.Idx → Elt Ideal .f32) (ix2 d e) := by
  obtain ⟨e0, e1⟩ := index_W1 t
  unfold iblk
  rw [View.read_apply]
  show (m ((c : Thread nD τ).loc main_arg3) : S128x128.Idx → Elt Ideal .f32) _ = _
  refine congrArg (m ((c : Thread nD τ).loc main_arg3) : S128x128.Idx → Elt Ideal .f32) (funext fun a => Fin.ext ?_)
  match a with
  | ⟨0, _⟩ => show win0_3.index t (0 : Fin 2) * 128 + 1 * d.val = d.val; rw [e0]; omega
  | ⟨1, _⟩ => show win0_3.index t (1 : Fin 2) * 128 + 1 * e.val = e.val; rw [e1]; omega

/-- The W2 block at every point is W2. -/
theorem W2_block (c : Dev nD) (t : Fin cfg0.N) (d e : Fin 128) :
    (iblk m c 4 t : Vec Ideal S128x128 .f32) (ix2 d e)
      = (m ((c : Thread nD τ).loc main_arg4) : S128x128.Idx → Elt Ideal .f32) (ix2 d e) := by
  obtain ⟨e0, e1⟩ := index_W2 t
  unfold iblk
  rw [View.read_apply]
  show (m ((c : Thread nD τ).loc main_arg4) : S128x128.Idx → Elt Ideal .f32) _ = _
  refine congrArg (m ((c : Thread nD τ).loc main_arg4) : S128x128.Idx → Elt Ideal .f32) (funext fun a => Fin.ext ?_)
  match a with
  | ⟨0, _⟩ => show win0_4.index t (0 : Fin 2) * 128 + 1 * d.val = d.val; rw [e0]; omega
  | ⟨1, _⟩ => show win0_4.index t (1 : Fin 2) * 128 + 1 * e.val = e.val; rw [e1]; omega

/-- The Wf block at every point is Wf. -/
theorem Wf_block (c : Dev nD) (t : Fin cfg0.N) (e : Fin 128) (z : Fin 1) :
    (iblk m c 5 t : Vec Ideal S128x1 .f32) (ix2 e z)
      = (m ((c : Thread nD τ).loc main_arg5) : S128x1.Idx → Elt Ideal .f32) (ix2 e (0 : Fin 1)) := by
  obtain ⟨e0, e1⟩ := index_Wf t
  unfold iblk
  rw [View.read_apply]
  show (m ((c : Thread nD τ).loc main_arg5) : S128x1.Idx → Elt Ideal .f32) _ = _
  refine congrArg (m ((c : Thread nD τ).loc main_arg5) : S128x1.Idx → Elt Ideal .f32) (funext fun a => Fin.ext ?_)
  have hz := z.isLt
  match a with
  | ⟨0, _⟩ => show win0_5.index t (0 : Fin 2) * 128 + 1 * e.val = e.val; rw [e0]; omega
  | ⟨1, _⟩ => show win0_5.index t (1 : Fin 2) * 1 + 1 * z.val = 0; rw [e1]; omega

/-- The bias block at every point is bf. -/
theorem bf_block (c : Dev nD) (t : Fin cfg0.N) (z : Fin 1) :
    (iblk m c 6 t : Vec Ideal S1 .f32) (ix1 z)
      = (m ((c : Thread nD τ).loc main_arg6) : S1.Idx → Elt Ideal .f32) (ix1 (0 : Fin 1)) := by
  have e0 := index_bf t
  unfold iblk
  rw [View.read_apply]
  show (m ((c : Thread nD τ).loc main_arg6) : S1.Idx → Elt Ideal .f32) _ = _
  refine congrArg (m ((c : Thread nD τ).loc main_arg6) : S1.Idx → Elt Ideal .f32) (funext fun a => Fin.ext ?_)
  have hz := z.isLt
  match a with
  | ⟨0, _⟩ => show win0_6.index t (0 : Fin 1) * 1 + 1 * z.val = 0; rw [e0]; omega

/-! ## The two output arrays -/

/-- The attention weights of every batch element, laid out as the region's second output [32, 1, 8192]. -/
def weightsArray (c : Dev nD) : S32x1x8192.Idx → Elt Ideal .f32 := fun i =>
  weights (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (i 0) (i 2)

/-- The attention outputs of every batch element, laid out as the region's first output [32, 1, 128]. -/
def contextArray (c : Dev nD) : S32x1x128.Idx → Elt Ideal .f32 := fun i =>
  context (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 2)

/-- The block of weights point t stores, entry by entry, is the weights array under the block's place in it. -/
theorem stored_weights_at (c : Dev nD) (t : Fin cfg0.N) (j : S1x1x8192.Idx) :
    out0_8 (iblk m c 0 t) (iblk m c 1 t) (iblk m c 2 t) (iblk m c 3 t) (iblk m c 4 t) (iblk m c 5 t) (iblk m c 6 t) j
      = weightsArray m c (((cfg0.win 8).blk t).view.emb j) := by
  obtain ⟨e0, e1, e2⟩ := index_wts t
  obtain ⟨u, z, s, rfl⟩ : ∃ (u z : Fin 1) (s : Fin 8192), j = ix3 u z s := ⟨j 0, j 1, j 2, eq_ix3 j⟩
  have hemb : ((cfg0.win 8).blk t).view.emb (ix3 u z s) = ix3 (batch t) (0 : Fin 1) s := funext fun a => Fin.ext (by
    have hu := u.isLt
    have hz := z.isLt
    match a with
    | ⟨0, _⟩ => show win0_8.index t (0 : Fin 3) * 1 + 1 * u.val = t.val; rw [e0]; omega
    | ⟨1, _⟩ => show win0_8.index t (1 : Fin 3) * 1 + 1 * z.val = 0; rw [e1]; omega
    | ⟨2, _⟩ => show win0_8.index t (2 : Fin 3) * 8192 + 1 * s.val = s.val; rw [e2]; omega)
  rw [hemb]
  refine (StoredBlocks.weights_block_at (iblk m c 0 t) (iblk m c 1 t) (iblk m c 2 t) (iblk m c 3 t) (iblk m c 4 t) (iblk m c 5 t) (iblk m c 6 t) u z s).trans ?_
  unfold weightsArray weights
  simp only [query_block, keys_block, W1_block, W2_block, Wf_block, bf_block]
  all_goals rfl

/-- What point t writes back to the second output is block t of the weights array. -/
theorem flushed_weights (c : Dev nD) (t : Fin cfg0.N) :
    (dats m 0 c).flushed 8 t = ((cfg0.win 8).blk t).view.read (Elt Ideal) (weightsArray m c) := by
  show (cfg0.win 8).cut (grid0.coords t) ((dats m 0 c).after 8 t) = _
  rw [after0_8]
  funext j
  exact stored_weights_at m c t j

/-- The block of outputs point t stores, entry by entry, is the outputs array under the block's place in it. -/
theorem stored_context_at (c : Dev nD) (t : Fin cfg0.N) (j : S1x1x128.Idx) :
    out0_7 (iblk m c 0 t) (iblk m c 1 t) (iblk m c 2 t) (iblk m c 3 t) (iblk m c 4 t) (iblk m c 5 t) (iblk m c 6 t) j
      = contextArray m c (((cfg0.win 7).blk t).view.emb j) := by
  obtain ⟨e0, e1, e2⟩ := index_out t
  obtain ⟨u, z, k, rfl⟩ : ∃ (u z : Fin 1) (k : Fin 128), j = ix3 u z k := ⟨j 0, j 1, j 2, eq_ix3 j⟩
  have hemb : ((cfg0.win 7).blk t).view.emb (ix3 u z k) = ix3 (batch t) (0 : Fin 1) k := funext fun a => Fin.ext (by
    have hu := u.isLt
    have hz := z.isLt
    match a with
    | ⟨0, _⟩ => show win0_7.index t (0 : Fin 3) * 1 + 1 * u.val = t.val; rw [e0]; omega
    | ⟨1, _⟩ => show win0_7.index t (1 : Fin 3) * 1 + 1 * z.val = 0; rw [e1]; omega
    | ⟨2, _⟩ => show win0_7.index t (2 : Fin 3) * 128 + 1 * k.val = k.val; rw [e2]; omega)
  rw [hemb]
  refine (StoredBlocks.context_block_at (iblk m c 0 t) (iblk m c 1 t) (iblk m c 2 t) (iblk m c 3 t) (iblk m c 4 t) (iblk m c 5 t) (iblk m c 6 t) u z k).trans ?_
  unfold contextArray context
  simp only [query_block, keys_block, values_block, W1_block, W2_block, Wf_block, bf_block]
  all_goals rfl

/-- What point t writes back to the first output is block t of the outputs array. -/
theorem flushed_context (c : Dev nD) (t : Fin cfg0.N) :
    (dats m 0 c).flushed 7 t = ((cfg0.win 7).blk t).view.read (Elt Ideal) (contextArray m c) := by
  show (cfg0.win 7).cut (grid0.coords t) ((dats m 0 c).after 7 t) = _
  rw [after0_7]
  funext j
  exact stored_context_at m c t j

/-- An index of the second output is in point t's block iff each coordinate is in the block's range on its axis. -/
theorem mem_block_weights (t : Fin cfg0.N) (i : S32x1x8192.Idx) :
    i ∈ ((cfg0.win 8).blk t).view.set ↔ ∀ a : Fin 3, win0_8.index t a * S1x1x8192.size a ≤ (i a).val ∧ (i a).val < win0_8.index t a * S1x1x8192.size a + S1x1x8192.size a := by
  show i ∈ ((View.whole main_v0_1).slice (win0_8.rect t)).set ↔ _
  rw [View.set_slice_whole, Rect.mem_set_unit]
  exact Iff.rfl

/-- An index of the first output is in point t's block iff each coordinate is in the block's range on its axis. -/
theorem mem_block_context (t : Fin cfg0.N) (i : S32x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v0_0).slice (win0_7.rect t)).set ↔ _
  rw [View.set_slice_whole, Rect.mem_set_unit]
  exact Iff.rfl

/-- The point that works on batch element b. -/
def pointOf (b : Nat) (hb : b < 32) : Fin cfg0.N := ⟨b, by rw [show cfg0.N = 32 from N_0]; exact hb⟩

/-- Row b of the second output is written by point b. -/
theorem cover_weights (i : S32x1x8192.Idx) :
    ∃ t : Fin cfg0.N, (cfg0.win 8).flush t = true ∧ i ∈ ((cfg0.win 8).blk t).view.set := by
  have h0 : (i 0).val < 32 := (i 0).isLt
  have h1 : (i 1).val < 1 := (i 1).isLt
  have h2 : (i 2).val < 8192 := (i 2).isLt
  refine ⟨pointOf (i 0).val h0, flush0_8 _, ?_⟩
  obtain ⟨e0, e1, e2⟩ := index_wts (pointOf (i 0).val h0)
  rw [mem_block_weights]
  intro a
  match a with
  | ⟨0, _⟩ => show win0_8.index (pointOf (i 0).val h0) (0 : Fin 3) * 1 ≤ (i 0).val ∧ (i 0).val < win0_8.index (pointOf (i 0).val h0) (0 : Fin 3) * 1 + 1
              rw [e0]; show (i 0).val * 1 ≤ (i 0).val ∧ (i 0).val < (i 0).val * 1 + 1; omega
  | ⟨1, _⟩ => show win0_8.index (pointOf (i 0).val h0) (1 : Fin 3) * 1 ≤ (i 1).val ∧ (i 1).val < win0_8.index (pointOf (i 0).val h0) (1 : Fin 3) * 1 + 1
              rw [e1]; omega
  | ⟨2, _⟩ => show win0_8.index (pointOf (i 0).val h0) (2 : Fin 3) * 8192 ≤ (i 2).val ∧ (i 2).val < win0_8.index (pointOf (i 0).val h0) (2 : Fin 3) * 8192 + 8192
              rw [e2]; omega

/-- Row b of the first output is written by point b. -/
theorem cover_context (i : S32x1x128.Idx) :
    ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 128 := (i 2).isLt
  refine ⟨pointOf (i 0).val h0, flush0_7 _, ?_⟩
  obtain ⟨e0, e1, e2⟩ := index_out (pointOf (i 0).val h0)
  rw [mem_block_context]
  intro a
  match a with
  | ⟨0, _⟩ => show win0_7.index (pointOf (i 0).val h0) (0 : Fin 3) * 1 ≤ (i 0).val ∧ (i 0).val < win0_7.index (pointOf (i 0).val h0) (0 : Fin 3) * 1 + 1
              rw [e0]; show (i 0).val * 1 ≤ (i 0).val ∧ (i 0).val < (i 0).val * 1 + 1; omega
  | ⟨1, _⟩ => show win0_7.index (pointOf (i 0).val h0) (1 : Fin 3) * 1 ≤ (i 1).val ∧ (i 1).val < win0_7.index (pointOf (i 0).val h0) (1 : Fin 3) * 1 + 1
              rw [e1]; omega
  | ⟨2, _⟩ => show win0_7.index (pointOf (i 0).val h0) (2 : Fin 3) * 128 ≤ (i 2).val ∧ (i 2).val < win0_7.index (pointOf (i 0).val h0) (2 : Fin 3) * 128 + 128
              rw [e2]; omega

/-- After the last point the region's second output holds the attention weights. -/
theorem final_weights (c : Dev nD) : (dats m 0 c).arrAt 8 cfg0.N = weightsArray m c :=
  (dats m 0 c).arrAt_eq_of_cover 8 (weightsArray m c) (fun t _ => flushed_weights m c t) (cover_weights)

/-- After the last point the region's first output holds the attention outputs. -/
theorem final_context (c : Dev nD) : (dats m 0 c).arrAt 7 cfg0.N = contextArray m c :=
  (dats m 0 c).arrAt_eq_of_cover 7 (contextArray m c) (fun t _ => flushed_context m c t) (cover_context)

end Cert.KernelIdeal.ArrayValue

end
-- ==== Proof.LibMiddleUnit.lean ====
/-
  A unit axis in the middle of a rank-3 shape dropped by a shape cast, read at an index.

  An [a, 1, b] array cast to [a, b] reads, at (i, j), the operand at (i, 0, j): both indices have row-major position
  i * b + j. (What x.reshape(a, b) of an [a, 1, b] array lowers to.)
-/
import Idealize.ShloMosaic.Lib.Pipeline.Value
import Idealize.ShloMosaic.Lib.ValueIdx

namespace Idealize.ShloMosaic.MiddleUnit

open Idealize.ShloMosaic Idealize.ShloMosaic.ValueIdx

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.MiddleUnit
-- ==== Proof.ProgramValue.lean ====
/-
  The kernel's whole program: the region, then a reshape of its first output and a transposition of its second.

  After the region the first output [32, 1, 128] holds the attention outputs and the second [32, 1, 8192] the attention
  weights. The program's first result drops the unit axis of the first output, so at (b, c) it is column c of the
  attention output of batch b; its second result swaps the last two axes of the second output, so at (b, s, 0) it is
  the weight of key s in batch b. The argument arrays are left as they were.
-/
import proofs.«103153_j41747082117247_2_alg».proof.Proof.ArrayValue
import proofs.«103153_j41747082117247_2_alg».proof.Proof.LibMiddleUnit
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.ProgramValue

open Cert.KernelIdeal Cert.KernelIdeal.Gen Cert.KernelIdeal.ArrayValue Cert.Attention Idealize.ShloMosaic.ValueIdx
  Idealize.ShloMosaic.StableHlo

variable (m : (ℓ : Loc nD τ sig) → Buf (Elt Ideal) ℓ) (ρ : Dev nD → PrngReg)

/-- The program's first result: the attention outputs, [32, 128]. -/
def resultContext (c : Dev nD) : S32x128.Idx → Elt Ideal .f32 := fun i =>
  context (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The program's second result: the attention weights, [32, 8192, 1]. -/
def resultWeights (c : Dev nD) : S32x8192x1.Idx → Elt Ideal .f32 := fun i =>
  weights (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (i 0) (i 1)

/-- The reshape after the region leaves the attention outputs with the unit axis dropped. -/
theorem tail_context (c : Dev nD) :
    Pipeline.afterTail₀ cfgs (dats m) 0 (V0 m) [hostOps1] c main_v1 = resultContext m c := by
  have e7 : Pipeline.withArrays spec0 c (V0 m c) (fun w => (dats m 0 c).arrAt w cfg0.N) (Proc.devRef .tc main_v0_0)
      = contextArray m c :=
    (Pipeline.withArrays_arr spec0 launch0.win.arr_inj c _ _ 7).trans (final_context m c)
  unfold Pipeline.afterTail₀
  show StableHlo.after hostOps1 _ (Proc.devRef .tc main_v1) = _
  after_results
  show (fun i => shapeCast S32x128 (Pipeline.withArrays spec0 c (V0 m c) (fun w => (dats m 0 c).arrAt w cfg0.N) (Proc.devRef .tc main_v0_0))
      shapeCasts_S32x1x128_S32x128 i) = _
  rw [e7]
  funext i
  obtain ⟨b, k, rfl⟩ : ∃ (b : Fin 32) (k : Fin 128), i = ix2 b k := ⟨i 0, i 1, eq_ix2 i⟩
  exact MiddleUnit.shapeCast_a1b_ab_apply (contextArray m c) shapeCasts_S32x1x128_S32x128 b k

/-- The transposition after the region leaves the attention weights with the keys on the middle axis. -/
theorem tail_weights (c : Dev nD) :
    Pipeline.afterTail₀ cfgs (dats m) 0 (V0 m) [hostOps1] c main_v2 = resultWeights m c := by
  have e8 : Pipeline.withArrays spec0 c (V0 m c) (fun w => (dats m 0 c).arrAt w cfg0.N) (Proc.devRef .tc main_v0_1)
      = weightsArray m c :=
    (Pipeline.withArrays_arr spec0 launch0.win.arr_inj c _ _ 8).trans (final_weights m c)
  unfold Pipeline.afterTail₀
  show StableHlo.after hostOps1 _ (Proc.devRef .tc main_v2) = _
  after_results
  show transpose S32x8192x1 [0, 2, 1] (Pipeline.withArrays spec0 c (V0 m c) (fun w => (dats m 0 c).arrAt w cfg0.N) (Proc.devRef .tc main_v0_1))
      transposes_S32x1x8192_S32x8192x1_0_2_1 = _
  rw [e8]
  funext i
  obtain ⟨b, s, z, rfl⟩ : ∃ (b : Fin 32) (s : Fin 8192) (z : Fin 1), i = ix3 b s z := ⟨i 0, i 1, i 2, eq_ix3 i⟩
  exact transpose_ix3_021_apply (weightsArray m c) transposes_S32x1x8192_S32x8192x1_0_2_1 b s z

/-- Every weakly fair execution of the kernel's program terminates with its two results at the attention outputs and
    the attention weights of the argument arrays, and the arguments unchanged. -/
theorem run : θ_run defs (onTc (τ := τ) (main (F := Ideal))) ⟨m, fun _ => 0, ρ⟩ fun r => ∀ c : Dev nD,
      r.2.mem ((c.tc : Thread nD τ).loc main_v1) = resultContext m c
      ∧ r.2.mem ((c.tc : Thread nD τ).loc main_v2) = resultWeights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v1 (Pipeline.mem_restRefs_of main_v1 rfl (by decide))).trans (tail_context m c),
      ((h c).2 main_v2 (Pipeline.mem_restRefs_of main_v2 rfl (by decide))).trans (tail_weights m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.ProgramValue

end
-- ==== Proof.lean ====
/-
  Additive (Bahdanau) attention: a kernel working one batch element per grid point against its jnp reference, equal on
  the extended reals.

  Both programs compute, for each of 32 batch elements, the scores
      logit s = sum_e tanh (sum_d k(s, d) * W1(d, e) + sum_d q(d) * W2(d, e)) * Wf(e) + bf
  of 8192 keys, their softmax (the shifted exponentials exp (logit s - max) divided by their sum), and the weighted
  sum of the values; the results are the attention outputs [32, 128] and the weights [32, 8192, 1].
  The kernel rounds operands to bf16 on the way into its four matrix products, lays the scores along the lanes by a
  transposition, reduces with a fold of max and a lane sum, and its program reshapes and transposes the region's
  outputs; the reference uses dot_general, reduces over the key axis, takes one more maximum with minus infinity and
  sums from zero. On the extended reals a change of float format is the identity, every product is the plain sum over
  the contracted coordinate, the sums do not depend on order or grouping, and the extra maximum and the zeros change
  nothing, so both programs' results are the same two functions of the argument arrays (Proof/Attention.lean), index by
  index, with no use of the finiteness of the inputs. The ideal pass rewrote nothing, so the kernel's idealization is
  its own text.
  The frames of the two kernel programs and the reference's run are the generated ones; written by hand are the
  reference's stages read at coordinates (Proof/ReferenceValue.lean), the kernel body's stored blocks as functions of
  its loaded blocks (Proof/BodyValue.lean, Proof/StoredBlocks.lean), the region's output arrays and the program's results
  (Proof/ArrayValue.lean, Proof/ProgramValue.lean), and the claims below.
-/
import proofs.«103153_j41747082117247_2_alg».proof.Defs
import proofs.«103153_j41747082117247_2_alg».proof.Proof.Gen.Kernel
import proofs.«103153_j41747082117247_2_alg».proof.Proof.Gen.Kernel.Skeleton
import proofs.«103153_j41747082117247_2_alg».proof.Proof.Gen.Kernel.Launch
import proofs.«103153_j41747082117247_2_alg».proof.Proof.Gen.Kernel.Points
import proofs.«103153_j41747082117247_2_alg».proof.Proof.Gen.Kernel.Frame
import proofs.«103153_j41747082117247_2_alg».proof.Proof.Gen.KernelIdeal
import proofs.«103153_j41747082117247_2_alg».proof.Proof.Gen.KernelIdeal.Skeleton
import proofs.«103153_j41747082117247_2_alg».proof.Proof.Gen.KernelIdeal.Launch
import proofs.«103153_j41747082117247_2_alg».proof.Proof.Gen.KernelIdeal.Points
import proofs.«103153_j41747082117247_2_alg».proof.Proof.Gen.KernelIdeal.Frame
import proofs.«103153_j41747082117247_2_alg».proof.Proof.Gen.ReferenceIdeal
import proofs.«103153_j41747082117247_2_alg».proof.Proof.Gen.ReferenceIdeal.Run
import proofs.«103153_j41747082117247_2_alg».proof.Proof.Gen.ReferenceIdeal.Read
import proofs.«103153_j41747082117247_2_alg».proof.Proof.Gen.Pre_finite_inputs
import proofs.«103153_j41747082117247_2_alg».proof.Proof.ReferenceValue
import proofs.«103153_j41747082117247_2_alg».proof.Proof.ProgramValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the seven arguments both programs end with the attention outputs and the attention
    weights of those arguments: the kernel's program by its run read through the region's arrays and the two host lines
    after it, the reference by its run read stage by stage. -/
theorem algebraic : Cert.algebraic_KernelIdeal_ReferenceIdeal := by
  intro m ρ m' ρ' _ hagree
  refine ⟨fun c => Cert.KernelIdeal.ProgramValue.resultContext m c, fun c => Cert.KernelIdeal.ProgramValue.resultWeights m c,
    Cert.KernelIdeal.ProgramValue.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v22_eq, Cert.ReferenceIdeal.RefValue.context_eq, a0, a1, a2, a3, a4, a5, a6]
    rfl
  · rw [Cert.ReferenceIdeal.Read.val_main_v19_eq, Cert.ReferenceIdeal.RefValue.weights_eq, a0, a1, a3, a4, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
